-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x256 : Shape := ⟨2, ![512, 256]⟩
abbrev S256 : Shape := ⟨1, ![256]⟩
abbrev S100000x256 : Shape := ⟨2, ![100000, 256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S100000x256 : S_.BroadcastsInDim S100000x256 (![] : Fin 0 → Fin S100000x256.rank)
  reducesTo_S100000x256_S_d0_1 : S100000x256.ReducesTo [0, 1] S_

variable [Facts]

def fn_part1 {F : FTy → Type} [FloatOps F] (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  main_v18

def fn {F : FTy → Type} [FloatOps F] (main_arg0 : FVec F S256x512 .f32) (main_arg1 : FVec F S512x256 .f32) (main_arg2 : FVec F S256 .f32) (main_arg3 : FVec F S100000x256 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_v13 main_v16
-- ==== Kernel.lean ====
abbrev S256x512 : Shape := ⟨2, ![256, 512]⟩
abbrev S512x256 : Shape := ⟨2, ![512, 256]⟩
abbrev S256 : Shape := ⟨1, ![256]⟩
abbrev S100000x256 : Shape := ⟨2, ![100000, 256]⟩
abbrev S256x256 : Shape := ⟨2, ![256, 256]⟩
abbrev S1x256 : Shape := ⟨2, ![1, 256]⟩
abbrev S_ : Shape := ⟨0, ![]⟩
abbrev S256x1 : Shape := ⟨2, ![256, 1]⟩
abbrev S2x1x256 : Shape := ⟨3, ![2, 1, 256]⟩
abbrev S5000x256 : Shape := ⟨2, ![5000, 256]⟩
abbrev S1x1x256 : Shape := ⟨3, ![1, 1, 256]⟩
abbrev S5000 : Shape := ⟨1, ![5000]⟩
abbrev S5000x1 : Shape := ⟨2, ![5000, 1]⟩
abbrev S2x256 : Shape := ⟨2, ![2, 256]⟩

abbrev nBuf : Space → Nat
  | .hbm => 21
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .hbm, ⟨2, _⟩ => ⟨S256, .f32⟩
  | .hbm, ⟨3, _⟩ => ⟨S100000x256, .f32⟩
  | .hbm, ⟨4, _⟩ => ⟨S256x256, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S1x256, .f32⟩
  | .hbm, ⟨14, _⟩ => ⟨S2x1x256, .f32⟩
  | .hbm, ⟨15, _⟩ => ⟨S2x256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .local _ .vmem, ⟨0, _⟩ => ⟨S256x256, .f32⟩
  | .local _ .vmem, ⟨1, _⟩ => ⟨S1x256, .f32⟩
  | .local _ .vmem, ⟨2, _⟩ => ⟨S5000x256, .f32⟩
  | .local _ .vmem, ⟨3, _⟩ => ⟨S5000x256, .f32⟩
  | .local _ .vmem, ⟨4, _⟩ => ⟨S1x1x256, .f32⟩
  | .local _ .vmem, ⟨5, _⟩ => ⟨S1x1x256, .f32⟩
  | .local _ .vmem, ⟨6, _⟩ => ⟨S1x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v34 : BitVec 1 := Scalar.cmpi .eq arg1 c9_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  transposes_S256x256_S256x256_1_0 : S256x256.Transposes [1, 0] S256x256
  reducesTo_S256x256_S256_d1 : S256x256.ReducesTo [1] S256
  h_S_ : 0 < S_.numel
  bcast_S256_S256x1_0 : S256.BroadcastsInDim S256x1 (![0] : Fin 1 → Fin S256x1.rank)
  transposes_S256x1_S1x256_1_0 : S256x1.Transposes [1, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5000x256_S5000x256_0_0 : ∀ a, (![0, 0] : Fin 2 → Nat) a + S5000x256.size a ≤ S5000x256.size a
  h_S5000x256 : 0 < S5000x256.numel
  reduces_S5000x256_S5000 : S5000x256.Reduces [1] S5000
  shapeCasts_S5000_S5000x1 : S5000.ShapeCasts S5000x1
  bitsLt_bf16_f32 : FTy.bits .bf16 < FTy.bits .f32
  broadcasts_S5000x1_S5000x256 : S5000x1.Broadcasts S5000x256
  broadcasts_S1x256_S5000x256 : S1x256.Broadcasts S5000x256
  reduces_S5000x256_S256 : S5000x256.Reduces [0] S256
  shapeCasts_S256_S1x256 : S256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S2x1x256_S2x256 : S2x1x256.ShapeCasts S2x256
  reducesTo_S2x256_S256_d0 : S2x256.ReducesTo [0] S256
  bcast_S_S256 : S_.BroadcastsInDim S256 (![] : Fin 0 → Fin S256.rank)
  dot_S256x512_S512x256_S256x256_1_0_0_1_n_n_wf : DotDims.WF S256x512 S512x256 S256x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v4) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x512 : Shape := ⟨2, ![256, 512]⟩
abbrev S512x256 : Shape := ⟨2, ![512, 256]⟩
abbrev S256 : Shape := ⟨1, ![256]⟩
abbrev S100000x256 : Shape := ⟨2, ![100000, 256]⟩
abbrev S256x256 : Shape := ⟨2, ![256, 256]⟩
abbrev S1x256 : Shape := ⟨2, ![1, 256]⟩
abbrev S_ : Shape := ⟨0, ![]⟩
abbrev S256x1 : Shape := ⟨2, ![256, 1]⟩
abbrev S100000 : Shape := ⟨1, ![100000]⟩
abbrev S1x100000 : Shape := ⟨2, ![1, 100000]⟩
abbrev S256x100000 : Shape := ⟨2, ![256, 100000]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .hbm, ⟨2, _⟩ => ⟨S256, .f32⟩
  | .hbm, ⟨3, _⟩ => ⟨S100000x256, .f32⟩
  | .hbm, ⟨4, _⟩ => ⟨S256x256, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S100000x256, .f32⟩
  | .hbm, ⟨13, _⟩ => ⟨S_, .f32⟩
  | .hbm, ⟨14, _⟩ => ⟨S100000, .f32⟩
  | .hbm, ⟨15, _⟩ => ⟨S1x100000, .f32⟩
  | .hbm, ⟨16, _⟩ => ⟨S256x100000, .f32⟩
  | .hbm, ⟨17, _⟩ => ⟨S256x100000, .f32⟩
  | .hbm, ⟨18, _⟩ => ⟨S256x100000, .f32⟩
  | .hbm, ⟨19, _⟩ => ⟨S256x100000, .f32⟩
  | .hbm, ⟨20, _⟩ => ⟨S256x100000, .f32⟩
  | .hbm, ⟨21, _⟩ => ⟨S_, .f32⟩
  | .hbm, ⟨22, _⟩ => ⟨S256x100000, .f32⟩
  | .hbm, ⟨23, _⟩ => ⟨S256x100000, .f32⟩
  | .hbm, ⟨24, _⟩ => ⟨S256x100000, .f32⟩
  | .hbm, ⟨25, _⟩ => ⟨S_, .f32⟩
  | .hbm, ⟨26, _⟩ => ⟨S256x100000, .f32⟩
  | .hbm, ⟨27, _⟩ => ⟨S256x100000, .f32⟩
  | .hbm, ⟨28, _⟩ => ⟨S256x100000, .f32⟩
  | .hbm, ⟨29, _⟩ => ⟨S_, .f32⟩
  | .hbm, ⟨30, _⟩ => ⟨S256x100000, .f32⟩
  | .hbm, ⟨31, _⟩ => ⟨S256x100000, .f32⟩
  | .hbm, ⟨32, _⟩ => ⟨S256x100000, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d1 : S256x256.ReducesTo [1] S256
  h_S_ : 0 < S_.numel
  bcast_S256_S256x1_0 : S256.BroadcastsInDim S256x1 (![0] : Fin 1 → Fin S256x1.rank)
  reducesTo_S100000x256_S100000_d1 : S100000x256.ReducesTo [1] S100000
  bcast_S100000_S1x100000_1 : S100000.BroadcastsInDim S1x100000 (![1] : Fin 1 → Fin S1x100000.rank)
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  transposes_S100000x256_S256x100000_1_0 : S100000x256.Transposes [1, 0] S256x100000
  bcast_S_S256x100000 : S_.BroadcastsInDim S256x100000 (![] : Fin 0 → Fin S256x100000.rank)
  reducesTo_S256x100000_S256_d1 : S256x100000.ReducesTo [1] S256
  bcast_S_S256 : S_.BroadcastsInDim S256 (![] : Fin 0 → Fin S256.rank)
  dot_S256x512_S512x256_S256x256_1_0_0_1_n_n_wf : DotDims.WF S256x512 S512x256 S256x256 [1] [0] [0] [1] [] []
  dot_S256x256_S256x100000_S256x100000_1_0_0_1_n_n_wf : DotDims.WF S256x256 S256x100000 S256x100000 [1] [0] [0] [1] [] []

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x100000_S256x100000_1_0_0_1_n_n : DotDims S256x256 S256x100000 S256x100000 where
  lhsContracting := [1]
  rhsContracting := [0]
  lhsNonContracting := [0]
  rhsNonContracting := [1]
  lhsBatch := []
  rhsBatch := []
  wf := dot_S256x256_S256x100000_S256x100000_1_0_0_1_n_n_wf

class Facts : Prop extends Facts₀ where

variable [Facts]
-- ==== Proof.RbfSpec.lean ====
/-
  Arithmetic shared by the two sides of the radial-basis-function similarity
      sim b = (∑ n, exp (-(max (‖e b‖² + ‖c n‖² - 2 e b · c n) 0) / 512)) / 100000 :
  the two float literals that meet (2⁻⁹ on one side, 512 on the other), the law that scaling a negated extended
  real by 2⁻⁹ is dividing it by 512, and the regrouping of a sum over the 100000 corpus rows into 20 tiles of
  5000 rows, the tiles grouped ten by ten.
-/
import Idealize.ShloMosaic.PureOps.Ideal
import Idealize.ShloMosaic.PureOps.Ideal.Laws
import Idealize.ShloMosaic.Lib.ValueIdx

noncomputable section

namespace Cert.Rbf

open Idealize.ShloMosaic

/-- The word 0x3B000000 is the dyadic 2⁻⁹ = 1/512. -/
theorem ofBits_inv512 : Ideal.ofBits .f32 0x3B000000#32 = ((1 / 512 : ℝ) : EReal) := by
  simp [Ideal.ofBits, Ideal.ieee, -EReal.coe_mul]; norm_num

/-- The word 0x44000000 is 512. -/
theorem ofBits_512 : Ideal.ofBits .f32 0x44000000#32 = ((512 : ℝ) : EReal) := by
  simp [Ideal.ofBits, Ideal.ieee, -EReal.coe_mul]; norm_num

/-- On every extended real, (0 - x) · 2⁻⁹ is (-x) / 512: the quotient by a nonzero real is the product with its
    reciprocal, infinities included. -/
theorem scale_eq (x : EReal) :
    (Ideal.ofBits .f32 0x00000000#32 - x) * Ideal.ofBits .f32 0x3B000000#32
      = Ideal.div (-x) (Ideal.ofBits .f32 0x44000000#32) := by
  rw [Ideal.ofBits_zero_f32, zero_sub, ofBits_inv512, ofBits_512, Ideal.div_coe (by norm_num : (512 : ℝ) ≠ 0)]

/-! ## Twenty tiles of 5000 rows -/

/-- Row `r` of tile `j` is corpus row `5000 j + r`. -/
def tileRow (j : Fin 20) (r : Fin 5000) : Fin 100000 :=
  ⟨5000 * j.val + r.val, by have := j.isLt; have := r.isLt; omega⟩

/-- Every corpus row is exactly one row of exactly one tile. -/
def tileEquiv : Fin 20 × Fin 5000 ≃ Fin 100000 where
  toFun x := tileRow x.1 x.2
  invFun n := (⟨n.val / 5000, by have := n.isLt; omega⟩, ⟨n.val % 5000, by omega⟩)
  left_inv x := by
    obtain ⟨j, r⟩ := x
    have := j.isLt; have := r.isLt
    refine Prod.ext (Fin.ext ?_) (Fin.ext ?_) <;> simp only [tileRow] <;> omega
  right_inv n := by
    apply Fin.ext; simp only [tileRow]; omega

/-- A sum over the corpus rows is the sum over the tiles of the sums over each tile's rows. -/
theorem sum_tiles {M : Type} [AddCommMonoid M] (f : Fin 100000 → M) :
    ∑ n, f n = ∑ j : Fin 20, ∑ r : Fin 5000, f (tileRow j r) := by
  rw [← Fintype.sum_prod_type' (f := fun j r => f (tileRow j r))]
  exact (Fintype.sum_equiv tileEquiv _ _ (fun _ => rfl)).symm

/-! ## Ten tiles per half -/

/-- The tiles a running sum has seen after grid point `t`: those of `t`'s half of the grid, up to `t`. -/
def upTo (t : Fin 20) : Finset (Fin 20) :=
  Finset.univ.filter fun j => j.val / 10 = t.val / 10 ∧ j.val ≤ t.val

/-- At the first point of a half, only that point's tile. -/
theorem upTo_first (t : Fin 20) (h : t.val % 10 = 0) : upTo t = {t} := by
  ext j
  simp only [upTo, Finset.mem_filter, Finset.mem_univ, true_and, Finset.mem_singleton]
  constructor
  · rintro ⟨h1, h2⟩; apply Fin.ext; omega
  · rintro rfl; exact ⟨rfl, le_refl _⟩

/-- At a later point of a half, the tiles seen before it and its own, which is new. -/
theorem upTo_next (t t' : Fin 20) (h : t.val = t'.val + 1) (h0 : ¬t.val % 10 = 0) :
    upTo t = insert t (upTo t') ∧ t ∉ upTo t' := by
  constructor
  · ext j
    simp only [upTo, Finset.mem_filter, Finset.mem_univ, true_and, Finset.mem_insert]
    constructor
    · rintro ⟨h1, h2⟩
      by_cases hj : j = t
      · exact Or.inl hj
      · right
        have : j.val ≠ t.val := fun e => hj (Fin.ext e)
        constructor <;> omega
    · rintro (rfl | ⟨h1, h2⟩)
      · exact ⟨rfl, le_refl _⟩
      · constructor <;> omega
  · simp only [upTo, Finset.mem_filter, Finset.mem_univ, true_and, not_and, not_le]
    intro _; omega

/-- At the last point of a half, all ten tiles of the half. -/
theorem upTo_last (t : Fin 20) (h : t.val % 10 = 9) :
    upTo t = Finset.univ.filter fun j : Fin 20 => j.val / 10 = t.val / 10 := by
  ext j
  have := j.isLt
  simp only [upTo, Finset.mem_filter, Finset.mem_univ, true_and]
  constructor
  · exact fun h => h.1
  · intro h1; exact ⟨h1, by omega⟩

/-- The half of the grid a point lies in. -/
def halfOf (j : Fin 20) : Fin 2 := ⟨j.val / 10, by have := j.isLt; omega⟩

/-- The last point of half `c`. -/
def lastOf (c : Fin 2) : Fin 20 := ⟨10 * c.val + 9, by have := c.isLt; omega⟩

/-- Summing each half's ten tiles and then the two halves is summing all twenty tiles. -/
theorem sum_halves {M : Type} [AddCommMonoid M] (f : Fin 20 → M) :
    ∑ c : Fin 2, ∑ j ∈ upTo (lastOf c), f j = ∑ j : Fin 20, f j := by
  rw [← Finset.sum_fiberwise Finset.univ halfOf f]
  refine Finset.sum_congr rfl fun c _ => ?_
  rw [upTo_last (lastOf c) (by have := c.isLt; simp only [lastOf]; omega)]
  refine Finset.sum_congr (Finset.filter_congr fun j _ => ?_) fun _ _ => rfl
  have hc := c.isLt
  constructor
  · intro h
    apply Fin.ext
    show j.val / 10 = c.val
    have h' : j.val / 10 = (10 * c.val + 9) / 10 := h
    omega
  · intro h
    have h' : j.val / 10 = c.val := congrArg Fin.val h
    show j.val / 10 = (10 * c.val + 9) / 10
    omega

end Cert.Rbf

end
-- ==== Proof.RbfBlocks.lean ====
/-
  What the kernel's windows hold, as functions of the program's arguments.
  Before the call the host computes the encodings e = x · W + bias (256 queries × 256 features), hands the kernel
  their transpose eT (window 0) and the row of squared query norms e2 b = 0 + ∑ k, e b k · e b k (window 1); both
  blocks are the whole arrays at every grid point. Window 2's block at grid point t is the tile of corpus rows
  5000 t … 5000 t + 4999. The output's block at point t is row t / 10 of the 2 × 1 × 256 result.
-/
import proofs.«138224_j74526272520307_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic
import Idealize.ShloMosaic.Lib.ValueLayout
import Idealize.ShloMosaic.PureOps.Ideal.Laws
import proofs.«138224_j74526272520307_2_alg».proof.Proof.RbfSpec

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## The host operations before the call -/

/-- The encodings: the projection of the explicands plus the bias row. -/
def enc (X : FVec F S256x512 .f32) (W : FVec F S512x256 .f32) (B : FVec F S256 .f32) : FVec F S256x256 .f32 :=
  addf (Host.dotGeneral dot_S256x512_S512x256_S256x256_1_0_0_1_n_n none X W)
    (broadcastInDim S256x256 ![0, 1] bcast_S1x256_S256x256_0_1 (broadcastInDim S1x256 ![1] bcast_S256_S1x256_1 B))

/-- The squared norms of the encodings' rows, summed by the host from its zero. -/
def encSq (E : FVec F S256x256 .f32) : FVec F S256 .f32 :=
  Host.reduceAdd (mulf E E) (constant (F := F) S_ .f32 0x00000000#32) reducesTo_S256x256_S256_d1 h_S_

/-- Window 0's array is the encodings transposed. -/
theorem V_v4 (c : Dev nD) : (V m c main_v4 : S256x256.Idx → F .f32)
    = transpose S256x256 [1, 0] (enc (m ((c : Thread nD τ).loc main_arg0)) (m ((c : Thread nD τ).loc main_arg1)) (m ((c : Thread nD τ).loc main_arg2))) transposes_S256x256_S256x256_1_0 := by
  show StableHlo.after hostOps0 (fun b => m (c, b)) (Proc.devRef .tc main_v4) = _
  after_results
  rfl

/-- Window 1's array is the column of squared norms, transposed to a row. -/
theorem V_v8 (c : Dev nD) : (V m c main_v8 : S1x256.Idx → F .f32)
    = transpose S1x256 [1, 0] (broadcastInDim S256x1 ![0] bcast_S256_S256x1_0
        (encSq (enc (m ((c : Thread nD τ).loc main_arg0)) (m ((c : Thread nD τ).loc main_arg1)) (m ((c : Thread nD τ).loc main_arg2)))))
        transposes_S256x1_S1x256_1_0 := by
  show StableHlo.after hostOps0 (fun b => m (c, b)) (Proc.devRef .tc main_v8) = _
  after_results
  rfl

/-! ## The windows' index maps over the grid -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = t.val / 10 ∧ win0_3.index t (1 : Fin 3) = 0 ∧ win0_3.index t (2 : Fin 3) = 0 :=
  (by decide +kernel : ∀ t : Fin grid0.N, _)

/-- A grid point as one of the twenty tiles. -/
def tileOf (t : Fin cfg0.N) : Fin 20 := ⟨t.val, lt_of_lt_of_eq t.isLt (show cfg0.N = 20 from N_0)⟩

/-! ## The input blocks -/

theorem iblk0 (c : Dev nD) (t : Fin cfg0.N) (d b : Fin 256) :
    (iblk m c 0 t : Vec F S256x256 .f32) (ix2 d b) = V m c main_v4 (ix2 d b) := by
  obtain ⟨h0, h1⟩ := idx0 t
  unfold iblk
  rw [View.read_apply]
  show V m c main_v4 _ = V m c main_v4 _
  refine congrArg (V m c main_v4) (funext fun a => Fin.ext ?_)
  match a with
  | ⟨0, _⟩ => show win0_0.index t (0 : Fin 2) * 256 + 1 * d.val = d.val; rw [h0]; omega
  | ⟨1, _⟩ => show win0_0.index t (1 : Fin 2) * 256 + 1 * b.val = b.val; rw [h1]; omega

theorem iblk1 (c : Dev nD) (t : Fin cfg0.N) (u : Fin 1) (b : Fin 256) :
    (iblk m c 1 t : Vec F S1x256 .f32) (ix2 u b) = V m c main_v8 (ix2 u b) := by
  obtain ⟨h0, h1⟩ := idx1 t
  unfold iblk
  rw [View.read_apply]
  show V m c main_v8 _ = V m c main_v8 _
  refine congrArg (V m c main_v8) (funext fun a => Fin.ext ?_)
  match a with
  | ⟨0, _⟩ => show win0_1.index t (0 : Fin 2) * 1 + 1 * u.val = u.val; rw [h0]; omega
  | ⟨1, _⟩ => show win0_1.index t (1 : Fin 2) * 256 + 1 * b.val = b.val; rw [h1]; omega

theorem iblk2 (c : Dev nD) (t : Fin cfg0.N) (r : Fin 5000) (d : Fin 256) :
    (iblk m c 2 t : Vec F S5000x256 .f32) (ix2 r d)
      = m ((c : Thread nD τ).loc main_arg3) (ix2 (Cert.Rbf.tileRow (tileOf t) r) d) := by
  obtain ⟨h0, h1⟩ := idx2 t
  rw [← V_main_arg3 m c]
  unfold iblk
  rw [View.read_apply]
  show V m c main_arg3 _ = V m c main_arg3 _
  refine congrArg (V m c main_arg3) (funext fun a => Fin.ext ?_)
  match a with
  | ⟨0, _⟩ => show win0_2.index t (0 : Fin 2) * 5000 + 1 * r.val = 5000 * t.val + r.val; rw [h0]; omega
  | ⟨1, _⟩ => show win0_2.index t (1 : Fin 2) * 256 + 1 * d.val = d.val; rw [h1]; omega

/-! ## The two host arrays read at an index, over the extended reals -/

section AtIdeal

variable (mI : (ℓ : Loc nD τ sig) → Buf (Elt Ideal) ℓ)

/-- Column b of window 0's array is query b's encoding. -/
theorem eT_apply (c : Dev nD) (d b : Fin 256) :
    (V mI c main_v4 : S256x256.Idx → Ideal .f32) (ix2 d b)
      = enc (F := Ideal) (mI ((c : Thread nD τ).loc main_arg0)) (mI ((c : Thread nD τ).loc main_arg1)) (mI ((c : Thread nD τ).loc main_arg2)) (ix2 b d) := by
  rw [V_v4]
  exact transpose_ix2_apply _ transposes_S256x256_S256x256_1_0 d b

/-- Lane b of window 1's array is query b's squared norm. -/
theorem e2_apply (c : Dev nD) (u : Fin 1) (b : Fin 256) :
    (V mI c main_v8 : S1x256.Idx → Ideal .f32) (ix2 u b)
      = encSq (F := Ideal) (enc (F := Ideal) (mI ((c : Thread nD τ).loc main_arg0)) (mI ((c : Thread nD τ).loc main_arg1)) (mI ((c : Thread nD τ).loc main_arg2))) (ix1 b) := by
  rw [V_v8]
  refine (transpose_ix2_apply _ transposes_S256x1_S1x256_1_0 u b).trans ?_
  exact broadcastInDim_apply _ bcast_S256_S256x1_0 _ (ix2 b u) (ix1 b) (fun a => match a with
    | ⟨0, _⟩ => by show b.val = if (256 : Nat) = 1 then 0 else b.val; rw [if_neg (by decide)])

/-- The host's sum of squares along a row: its zero plus the sum over the row. -/
theorem encSq_apply (E : FVec Ideal S256x256 .f32) (b : Fin 256) :
    encSq E (ix1 b) = Ideal.ofBits .f32 0x00000000#32 + ∑ k : Fin 256, E (ix2 b k) * E (ix2 b k) := by
  unfold encSq
  simp only [Host.reduceAdd, Ideal.hostReduceAdd_def]
  rw [Ideal.hostReduceAdd_single reducesTo_S256x256_S256_d1 (by decide)]
  refine congrArg (_ + ·) (Finset.sum_congr rfl fun k _ => ?_)
  exact congrArg (mulf E E) (funext fun a => Fin.ext (by match a with | ⟨0, _⟩ => rfl | ⟨1, _⟩ => rfl))

end AtIdeal

end Cert.KernelIdeal.Blocks

end
-- ==== Proof.RbfPayload.lean ====
/-
  The body's one arithmetic payload, read at an index over the extended reals.
  With eT the transposed encodings (column b is query b), e2 the row of squared query norms, c a tile of 5000
  corpus rows and acc the accumulator row, the payload is, at lane b,
      acc b + ∑ r, exp ((0 - max ((‖c r‖² + e2 b) - 2 · (∑ d, c r d · eT d b)) 0) · 2⁻⁹):
  the row sum and the lane sum are plain finite sums, the matrix product into a zero accumulator is the sum over
  the contracted axis, and the two changes of float format are the identity.
-/
import proofs.«138224_j74526272520307_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

/-! ## Two keepdims layout forms read at an index -/

namespace Cert.Rbf.Layout

variable {α : Type}

/-- A vector cast to a column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Layout

namespace Cert.KernelIdeal.Payload

open Cert.KernelIdeal Cert.KernelIdeal.Gen Cert.Rbf.Layout

/-! ## The three non-pointwise pieces -/

/-- The tile's squared row norms, spread over the lanes. -/
def rowSq (x2 : FVec Ideal S5000x256 .f32) : FVec Ideal S5000x256 .f32 :=
  broadcastTo S5000x256 (shapeCast S5000x1 (multiReduction .add [1] S5000 (mulf x2 x2) 0x00000000#32
    reduces_S5000x256_S5000 (.inl rfl) rfl) shapeCasts_S5000_S5000x1) broadcasts_S5000x1_S5000x256

theorem rowSq_apply (x2 : FVec Ideal S5000x256 .f32) (r : Fin 5000) (b : Fin 256) :
    rowSq x2 (ix2 r b) = ∑ d : Fin 256, x2 (ix2 r d) * x2 (ix2 r d) := by
  unfold rowSq
  refine (broadcastTo_a1_ab_apply _ broadcasts_S5000x1_S5000x256 r b).trans ?_
  refine (shapeCast_a_a1_apply _ shapeCasts_S5000_S5000x1 r (0 : Fin 1)).trans ?_
  refine (Ideal.multiReduction_add_single (mulf x2 x2) 0x00000000#32 reduces_S5000x256_S5000 (.inl rfl) rfl (ix1 r)).trans ?_
  exact Finset.sum_congr rfl fun d _ => congrArg (mulf x2 x2) (funext fun a => match a with | ⟨0, _⟩ => rfl | ⟨1, _⟩ => rfl)

/-- The row of squared query norms, spread over the tile's rows. -/
def rowE2 (x1 : Vec Ideal S1x256 .f32) : FVec Ideal S5000x256 .f32 :=
  broadcastTo S5000x256 (shapeCast S1x256 x1 shapeCasts_S1x256_S1x256) broadcasts_S1x256_S5000x256

theorem rowE2_apply (x1 : Vec Ideal S1x256 .f32) (r : Fin 5000) (b : Fin 256) :
    rowE2 x1 (ix2 r b) = x1 (ix2 (0 : Fin 1) b) := by
  unfold rowE2
  refine (broadcastTo_1b_ab_apply _ broadcasts_S1x256_S5000x256 r b).trans ?_
  rw [shapeCast_self]

/-- The tile times the transposed encodings. -/
def cross (x0 : Vec Ideal S256x256 .f32) (x2 : FVec Ideal S5000x256 .f32) : FVec Ideal S5000x256 .f32 :=
  matmul dot_S5000x256_S256x256_S5000x256_1_0_0_1_n_n none (truncf .bf16 x2 bitsLt_bf16_f32)
    (truncf .bf16 (shapeCast S256x256 x0 shapeCasts_S256x256_S256x256) bitsLt_bf16_f32) (constant S5000x256 .f32 0x00000000#32)

theorem lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem cross_apply (x0 : Vec Ideal S256x256 .f32) (x2 : FVec Ideal S5000x256 .f32) (r : Fin 5000) (b : Fin 256) :
    cross x0 x2 (ix2 r b) = ∑ d : Fin 256, x2 (ix2 r d) * x0 (ix2 d b) := by
  unfold cross
  rw [shapeCast_self]
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 r b) ((contrEquiv1 dot_S5000x256_S256x256_S5000x256_1_0_0_1_n_n 256 rfl rfl).symm k) = ix2 r k := funext fun a => Fin.ext (by
    match a with
    | ⟨0, _⟩ => exact lhs_0 _ _
    | ⟨1, _⟩ => exact (lhs_1 _ _).trans hk)
  have er : dot_S5000x256_S256x256_S5000x256_1_0_0_1_n_n.rhsIdx (ix2 r b) ((contrEquiv1 dot_S5000x256_S256x256_S5000x256_1_0_0_1_n_n 256 rfl rfl).symm k) = ix2 k b := funext fun a => Fin.ext (by
    match a with
    | ⟨0, _⟩ => exact (rhs_0 _ _).trans hk
    | ⟨1, _⟩ => exact rhs_1 _ _)
  rw [el, er]
  rfl

/-! ## The tile's similarity matrix and the payload -/

/-- The similarity of every row of the tile to every query: `exp ((0 - max (d²) 0) · 2⁻⁹)`. -/
def rbfMat (x0 : Vec Ideal S256x256 .f32) (x1 : Vec Ideal S1x256 .f32) (x2 : FVec Ideal S5000x256 .f32) : FVec Ideal S5000x256 .f32 :=
  exp (mulf (subf (broadcast S5000x256 (Scalar.ofBits .f32 0x00000000#32))
      (maximumf (subf (addf (rowSq x2) (rowE2 x1)) (mulf (broadcast S5000x256 (Scalar.ofBits .f32 0x40000000#32)) (cross x0 x2)))
        (broadcast S5000x256 (Scalar.ofBits .f32 0x00000000#32))))
    (broadcast S5000x256 (Scalar.ofBits .f32 0x3B000000#32)))

/-- One row of a tile against one query, as a function of the row's squared norm, the query's and their product. -/
def simTerm (cc ee ce : EReal) : EReal :=
  Ideal.exp ((Ideal.ofBits .f32 0x00000000#32 - max ((cc + ee) - Ideal.ofBits .f32 0x40000000#32 * ce) (Ideal.ofBits .f32 0x00000000#32))
    * Ideal.ofBits .f32 0x3B000000#32)

theorem rbfMat_apply (x0 : Vec Ideal S256x256 .f32) (x1 : Vec Ideal S1x256 .f32) (x2 : FVec Ideal S5000x256 .f32) (r : Fin 5000) (b : Fin 256) :
    rbfMat x0 x1 x2 (ix2 r b)
      = simTerm (∑ d : Fin 256, x2 (ix2 r d) * x2 (ix2 r d)) (x1 (ix2 (0 : Fin 1) b)) (∑ d : Fin 256, x2 (ix2 r d) * x0 (ix2 d b)) := by
  rw [← rowSq_apply x2 r b, ← rowE2_apply x1 r b, ← cross_apply x0 x2 r b]
  rfl

/-- The payload is the accumulator plus the lane sums of the similarity matrix. -/
theorem pay3_eq (x0 : Vec Ideal S256x256 .f32) (x2 : Vec Ideal S5000x256 .f32) (x1 : Vec Ideal S1x256 .f32) (acc : Vec Ideal S1x256 .f32) :
    k0_pay3 (F := Ideal) x0 x2 x1 acc
      = shapeCast S1x256 (addf acc (shapeCast S1x256 (multiReduction .add [0] S256 (rbfMat x0 x1 x2) 0x00000000#32
          reduces_S5000x256_S256 (.inl rfl) rfl) shapeCasts_S256_S1x256)) shapeCasts_S1x256_S1x256 := rfl

theorem pay3_apply (x0 : Vec Ideal S256x256 .f32) (x2 : Vec Ideal S5000x256 .f32) (x1 : Vec Ideal S1x256 .f32) (acc : Vec Ideal S1x256 .f32)
    (b : Fin 256) :
    k0_pay3 (F := Ideal) x0 x2 x1 acc (ix2 (0 : Fin 1) b) = acc (ix2 (0 : Fin 1) b) + ∑ r : Fin 5000, rbfMat x0 x1 x2 (ix2 r b) := by
  rw [pay3_eq, shapeCast_self]
  show acc (ix2 (0 : Fin 1) b) + _ = _
  refine congrArg (acc (ix2 (0 : Fin 1) b) + ·) ?_
  refine (shapeCast_a_1a_apply _ shapeCasts_S256_S1x256 (0 : Fin 1) b).trans ?_
  refine (Ideal.multiReduction_add_single (rbfMat x0 x1 x2) 0x00000000#32 reduces_S5000x256_S256 (.inl rfl) rfl (ix1 b)).trans ?_
  exact Finset.sum_congr rfl fun r _ => congrArg (rbfMat x0 x1 x2) (funext fun a => match a with | ⟨0, _⟩ => rfl | ⟨1, _⟩ => rfl)

/-- The zero row the first point of a half stores. -/
theorem pay2_apply (j : S1x256.Idx) : k0_pay2 (F := Ideal) j = Ideal.ofBits .f32 0x00000000#32 := by
  unfold k0_pay2
  rw [shapeCast_self]
  rfl

/-- The output block is the accumulator row with a unit axis in front. -/
theorem pay1_apply (v : Vec Ideal S1x256 .f32) (u w : Fin 1) (b : Fin 256) :
    k0_pay1 (F := Ideal) v (ix3 u w b) = v (ix2 w b) := by
  unfold k0_pay1
  exact shapeCast_ab_1ab_apply v shapeCasts_S1x256_S1x1x256 u w b

end Cert.KernelIdeal.Payload

end
-- ==== Proof.RbfPieces.lean ====
/-
  What each control case of the kernel body leaves behind, as a pure function of what it loaded.
  The body has three cases by the position i of the grid point in its half of the grid (ten points per half):
  at i = 0 it zeroes the accumulator row first; at every point it adds the point's partial row sums to the
  accumulator; at i = 9 it also copies the accumulator to the output block. In every case the accumulator ends at
  the SAME payload `k0_pay3` of the three input blocks and of the accumulator's previous contents (the zero row at
  i = 0), and at i = 9 the output block is that payload with a unit axis added (`k0_pay1`).
-/
import proofs.«138224_j74526272520307_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! ## The pieces found by running each case, read back as values -/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a middle point of a half the carried accumulator ends at the one store's payload of the three input blocks and of
    what the accumulator held. -/
theorem sout_B (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S256x256 .f32) (x1 : Vec F S1x256 .f32) (x2 : Vec F S5000x256 .f32) (xs0 : Vec F S1x256 .f32) :
    sout0_B_0 c i arg2 harg2 arg3 harg3 arg4 harg4 arg5 harg5 arg6 harg6 hc0 hc1 x0 x1 x2 xs0 = k0_pay3 x0 x2 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg6.read_unread,
    View.ld_unit_zero (S := S256x256) hz2, View.ld_unit_zero (S := S5000x256) hz2, View.ld_unit_zero (S := S1x256) hz2]

/-- At the last point of a half the same. -/
theorem sout_C (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S256x256 .f32) (x1 : Vec F S1x256 .f32) (x2 : Vec F S5000x256 .f32) (xs0 : Vec F S1x256 .f32) :
    sout0_C_0 c i arg2 harg2 arg3 harg3 arg4 harg4 arg5 harg5 arg6 harg6 hc0 hc1 x0 x1 x2 xs0 = k0_pay3 x0 x2 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S256x256) hz2, View.ld_unit_zero (S := S5000x256) hz2, View.ld_unit_zero (S := S1x256) hz2]

/-- At the first point of a half the accumulator is first stored the zero row, and the one later store's payload reads
    that row back. -/
theorem sout_A (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S256x256 .f32) (x1 : Vec F S1x256 .f32) (x2 : Vec F S5000x256 .f32) :
    sout0_A_0 c i arg2 harg2 arg3 harg3 arg4 harg4 arg5 harg5 arg6 harg6 hc0 hc1 x0 x1 x2 = k0_pay3 x0 x2 x1 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg6.read_unread,
    View.ld_unit_zero (S := S256x256) hz2, View.ld_unit_zero (S := S5000x256) hz2, View.ld_unit_zero (S := S1x256) hz2]

/-- At the last point of a half the output block is stored the accumulator's new contents, with a unit axis added. -/
theorem out_C (c : Dev nD) (i : grid0.Coords) (arg2 : Memref sig .tc .vmem S256x256 .f32) (harg2 : arg2.IsWhole) (arg3 : Memref sig .tc .vmem S1x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S256x256 .f32) (x1 : Vec F S1x256 .f32) (x2 : Vec F S5000x256 .f32) (xs0 : Vec F S1x256 .f32) :
    out0_C_3 c i arg2 harg2 arg3 harg3 arg4 harg4 arg5 harg5 arg6 harg6 hc0 hc1 x0 x1 x2 xs0 = k0_pay1 (k0_pay3 x0 x2 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x256) _ hz2]
  simp only [View.readAt_eq_ld, harg2.read_unread, harg3.read_unread, harg4.read_unread, harg6.read_unread,
    View.ld_unit_zero (S := S256x256) hz2, View.ld_unit_zero (S := S5000x256) hz2, View.ld_unit_zero (S := S1x256) hz2]

end Cert.KernelIdeal.Pieces

end
-- ==== Proof.RbfAccum.lean ====
/-
  The accumulator across the grid.
  The grid is two halves of ten points; point t sees tile t of the corpus. By induction on the point, after
  point t the carried accumulator row holds, at lane b, the sum of the partial sums of the tiles of t's half up
  to t: the first point of a half starts from the zero row, every later point adds its tile's partial sum. At the
  last point of a half the output block is that row.
-/
import proofs.«138224_j74526272520307_2_alg».proof.Proof.RbfBlocks
import proofs.«138224_j74526272520307_2_alg».proof.Proof.RbfPayload
import proofs.«138224_j74526272520307_2_alg».proof.Proof.RbfPieces

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.Rbf

/-- The partial sum of tile `j` at lane `b`: over the tile's 5000 rows, the similarity of the row to query `b`. -/
def tileSum (eT : S256x256.Idx → EReal) (e2 : S1x256.Idx → EReal) (C : S100000x256.Idx → EReal) (j : Fin 20) (b : Fin 256) : EReal :=
  ∑ r : Fin 5000, Payload.simTerm (∑ d : Fin 256, C (ix2 (tileRow j r) d) * C (ix2 (tileRow j r) d))
    (e2 (ix2 (0 : Fin 1) b)) (∑ d : Fin 256, C (ix2 (tileRow j r) d) * eT (ix2 d b))

/-- One application of the payload adds one tile's partial sum to the accumulator. -/
theorem step (eT : S256x256.Idx → EReal) (e2 : S1x256.Idx → EReal) (C : S100000x256.Idx → EReal) (j : Fin 20)
    (x0 : Vec Ideal S256x256 .f32) (x1 : Vec Ideal S1x256 .f32) (x2 : Vec Ideal S5000x256 .f32) (acc : Vec Ideal S1x256 .f32)
    (h0 : ∀ d b, x0 (ix2 d b) = eT (ix2 d b)) (h1 : ∀ b, x1 (ix2 (0 : Fin 1) b) = e2 (ix2 (0 : Fin 1) b))
    (h2 : ∀ r d, x2 (ix2 r d) = C (ix2 (tileRow j r) d)) (b : Fin 256) :
    k0_pay3 (F := Ideal) x0 x2 x1 acc (ix2 (0 : Fin 1) b) = acc (ix2 (0 : Fin 1) b) + tileSum eT e2 C j b := by
  rw [Payload.pay3_apply]
  refine congrArg (acc (ix2 (0 : Fin 1) b) + ·) (Finset.sum_congr rfl fun r _ => ?_)
  rw [Payload.rbfMat_apply, h1 b]
  simp only [h0, h2]

variable (m : (ℓ : Loc nD τ sig) → Buf (Elt Ideal) ℓ)

/-- The three arrays the kernel reads, as the call finds them. -/
abbrev eT (c : Dev nD) : S256x256.Idx → EReal := V m c main_v4
abbrev e2 (c : Dev nD) : S1x256.Idx → EReal := V m c main_v8
abbrev corpus (c : Dev nD) : S100000x256.Idx → EReal := m ((c : Thread nD τ).loc main_arg3)

theorem lt20 {n : ℕ} (hn : n < cfg0.N) : n < 20 := lt_of_lt_of_eq hn (show cfg0.N = 20 from N_0)

/-- The payload on the blocks of point `t`. -/
theorem stepAt (c : Dev nD) (t : Fin cfg0.N) (acc : Vec Ideal S1x256 .f32) (b : Fin 256) :
    k0_pay3 (F := Ideal) (iblk m c 0 t) (iblk m c 2 t) (iblk m c 1 t) acc (ix2 (0 : Fin 1) b)
      = acc (ix2 (0 : Fin 1) b) + tileSum (eT m c) (e2 m c) (corpus m c) (tileOf t) b :=
  step (eT m c) (e2 m c) (corpus m c) (tileOf t) (iblk m c 0 t) (iblk m c 1 t) (iblk m c 2 t) acc
    (iblk0 m c t) (fun b => iblk1 m c t (0 : Fin 1) b) (iblk2 m c t) b

/-- At the first point of a half the accumulator ends at that point's partial sum. -/
theorem acc_A (c : Dev nD) (t : Fin cfg0.N) (h0 : t.val % 10 = 0) (h1 : ¬t.val % 10 = 9) (b : Fin 256) :
    (outsAt0 m c t.val t.isLt).2 (ix2 (0 : Fin 1) b) = tileSum (eT m c) (e2 m c) (corpus m c) (tileOf t) b := by
  rw [outsAt0_A m c t h0 h1]
  dsimp only
  rw [Pieces.sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  rw [stepAt, Payload.pay2_apply, Ideal.ofBits_zero_f32, zero_add]

/-- At a middle point of a half it adds its partial sum to what the point before left. -/
theorem acc_B (c : Dev nD) (t : Fin cfg0.N) (h0 : ¬t.val % 10 = 0) (h1 : ¬t.val % 10 = 9) (b : Fin 256) :
    (outsAt0 m c t.val t.isLt).2 (ix2 (0 : Fin 1) b)
      = (outsAt0 m c (t.val - 1) (Nat.lt_of_le_of_lt (Nat.sub_le _ _) t.isLt)).2 (ix2 (0 : Fin 1) b)
        + tileSum (eT m c) (e2 m c) (corpus m c) (tileOf t) b := by
  rw [outsAt0_B m c t h0 h1]
  dsimp only
  rw [Pieces.sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)]
  rw [stepAt]

/-- At the last point of a half the same, -/
theorem acc_C (c : Dev nD) (t : Fin cfg0.N) (h0 : ¬t.val % 10 = 0) (h1 : t.val % 10 = 9) (b : Fin 256) :
    (outsAt0 m c t.val t.isLt).2 (ix2 (0 : Fin 1) b)
      = (outsAt0 m c (t.val - 1) (Nat.lt_of_le_of_lt (Nat.sub_le _ _) t.isLt)).2 (ix2 (0 : Fin 1) b)
        + tileSum (eT m c) (e2 m c) (corpus m c) (tileOf t) b := by
  rw [outsAt0_C m c t h0 h1]
  dsimp only
  rw [Pieces.sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)]
  rw [stepAt]

/-- and the output block is the accumulator row with a unit axis in front. -/
theorem out_C (c : Dev nD) (t : Fin cfg0.N) (h0 : ¬t.val % 10 = 0) (h1 : t.val % 10 = 9) (u w : Fin 1) (b : Fin 256) :
    (outsAt0 m c t.val t.isLt).1 (ix3 u w b) = (outsAt0 m c t.val t.isLt).2 (ix2 w b) := by
  rw [outsAt0_C m c t h0 h1]
  dsimp only
  rw [Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t),
    Pieces.sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t),
    Payload.pay1_apply]

/-- After point `n` the accumulator holds the partial sums of the tiles of `n`'s half up to `n`. -/
theorem acc_eq (c : Dev nD) : ∀ (n : ℕ) (hn : n < cfg0.N) (b : Fin 256),
    (outsAt0 m c n hn).2 (ix2 (0 : Fin 1) b) = ∑ j ∈ upTo ⟨n, lt20 hn⟩, tileSum (eT m c) (e2 m c) (corpus m c) j b
  | 0, hn, b => by
    rw [upTo_first _ rfl, Finset.sum_singleton]
    exact acc_A m c ⟨0, hn⟩ rfl (show ¬(0 : ℕ) % 10 = 9 by decide) b
  | n + 1, hn, b => by
    have hN := lt20 hn
    by_cases h0 : (n + 1) % 10 = 0
    · rw [upTo_first _ h0, Finset.sum_singleton]
      exact acc_A m c ⟨n + 1, hn⟩ h0 (by show ¬(n + 1) % 10 = 9; omega) b
    · have ih := acc_eq c n (Nat.lt_of_succ_lt hn) b
      obtain ⟨hup, hnew⟩ := upTo_next ⟨n + 1, hN⟩ ⟨n, lt20 (Nat.lt_of_succ_lt hn)⟩ rfl h0
      rw [hup, Finset.sum_insert hnew, ← ih]
      refine Eq.trans ?_ (add_comm _ _)
      by_cases h1 : (n + 1) % 10 = 9
      · exact acc_C m c ⟨n + 1, hn⟩ h0 h1 b
      · exact acc_B m c ⟨n + 1, hn⟩ h0 h1 b

end Cert.KernelIdeal.Accum

end
-- ==== Proof.RbfFinal.lean ====
/-
  The kernel's result.
  The call's 2 × 1 × 256 result holds, in row k, the sum of the ten partial sums of half k of the grid (written
  back once, at the half's last point); the host then reshapes it to 2 × 256, sums the two rows from its zero and
  divides by 100000. So the program's result at query b is (0 + ∑ k, ∑ (tiles j of half k), partial j b) / 100000.
-/
import proofs.«138224_j74526272520307_2_alg».proof.Proof.RbfAccum

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.Rbf

variable (m : (ℓ : Loc nD τ sig) → Buf (Elt Ideal) ℓ) (ρ : Dev nD → PrngReg)

/-- The sum of the ten partial sums of half `k` at lane `b`. -/
def halfSum (c : Dev nD) (k : Fin 2) (b : Fin 256) : EReal :=
  ∑ j ∈ upTo (lastOf k), tileSum (eT m c) (e2 m c) (corpus m c) j b

/-- The call's result array: row `k` is half `k`'s sum. -/
def halves (c : Dev nD) : S2x1x256.Idx → EReal := fun i => halfSum m c (i 0) (i 2)

/-- What the last point of a half writes back is its block of `halves`. -/
theorem flushed_eq (c : Dev nD) (t : Fin cfg0.N) (hf : (cfg0.win 3).flush t = true) :
    (dats m 0 c).flushed 3 t = ((cfg0.win 3).blk t).view.read (Elt Ideal) (halves m c) := by
  have h9 : t.val % 10 = 9 := (flush0_3 t).mp hf
  have h0 : ¬t.val % 10 = 0 := by omega
  have hN : t.val < 20 := lt20 t.isLt
  obtain ⟨i0, i1, i2⟩ := idx3 t
  show (cfg0.win 3).cut (grid0.coords t) ((dats m 0 c).after 3 t) = _
  rw [after0_3]
  funext y
  obtain ⟨u, w, b, rfl⟩ : ∃ (u w : Fin 1) (b : Fin 256), y = ix3 u w b := ⟨y 0, y 1, y 2, eq_ix3 y⟩
  have hw : w = 0 := Fin.ext (by have := w.isLt; omega)
  subst hw
  show (outsAt0 m c t.val t.isLt).1 (ix3 u 0 b) = halves m c (((cfg0.win 3).blk t).view.emb (ix3 u 0 b))
  rw [out_C m c t h0 h9 u 0 b, acc_eq m c t.val t.isLt b]
  show _ = halfSum m c ((((cfg0.win 3).blk t).view.emb (ix3 u 0 b)) 0) ((((cfg0.win 3).blk t).view.emb (ix3 u 0 b)) 2)
  have hk : t.val / 10 < 2 := by omega
  have ek : ((((cfg0.win 3).blk t).view.emb (ix3 u 0 b)) 0 : Fin 2) = (⟨t.val / 10, hk⟩ : Fin 2) :=
    Fin.ext (by show win0_3.index t (0 : Fin 3) * 1 + 1 * u.val = t.val / 10; have := u.isLt; rw [i0]; omega)
  have eb : ((((cfg0.win 3).blk t).view.emb (ix3 u 0 b)) 2 : Fin 256) = b :=
    Fin.ext (by show win0_3.index t (2 : Fin 3) * 256 + 1 * b.val = b.val; rw [i2]; omega)
  rw [ek, eb]
  unfold halfSum
  refine Finset.sum_congr (congrArg upTo (Fin.ext ?_)) fun _ _ => rfl
  show t.val = 10 * (t.val / 10) + 9
  omega

/-- An index of the result array is in point `t`'s block iff each coordinate is in the block's range. -/
theorem mem_blk (t : Fin cfg0.N) (i : S2x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v9).slice (win0_3.rect t)).set ↔ _
  rw [View.set_slice_whole, Rect.mem_set_unit]
  exact Iff.rfl

/-- The two write-backs cover the result array, so after the call it is `halves`. -/
theorem final_o (c : Dev nD) : (dats m 0 c).arrAt 3 cfg0.N = halves m c :=
  (dats m 0 c).arrAt_eq_of_cover 3 (halves m c) (flushed_eq m c) fun i => by
    have hi0 : (i 0).val < 2 := (i 0).isLt
    have hi1 : (i 1).val < 1 := (i 1).isLt
    have hi2 : (i 2).val < 256 := (i 2).isLt
    have hlt : 10 * (i 0).val + 9 < cfg0.N := by rw [show cfg0.N = 20 from N_0]; omega
    obtain ⟨e0, e1, e2⟩ := idx3 ⟨10 * (i 0).val + 9, hlt⟩
    refine ⟨⟨10 * (i 0).val + 9, hlt⟩, (flush0_3 _).mpr (by show (10 * (i 0).val + 9) % 10 = 9; omega), ?_⟩
    rw [mem_blk]
    intro a
    match a with
    | ⟨0, _⟩ =>
      show win0_3.index ⟨10 * (i 0).val + 9, hlt⟩ (0 : Fin 3) * 1 ≤ (i 0).val ∧ (i 0).val < win0_3.index ⟨10 * (i 0).val + 9, hlt⟩ (0 : Fin 3) * 1 + 1
      rw [e0]; show (10 * (i 0).val + 9) / 10 * 1 ≤ (i 0).val ∧ (i 0).val < (10 * (i 0).val + 9) / 10 * 1 + 1; omega
    | ⟨1, _⟩ =>
      show win0_3.index ⟨10 * (i 0).val + 9, hlt⟩ (1 : Fin 3) * 1 ≤ (i 1).val ∧ (i 1).val < win0_3.index ⟨10 * (i 0).val + 9, hlt⟩ (1 : Fin 3) * 1 + 1
      rw [e1]; omega
    | ⟨2, _⟩ =>
      show win0_3.index ⟨10 * (i 0).val + 9, hlt⟩ (2 : Fin 3) * 256 ≤ (i 2).val ∧ (i 2).val < win0_3.index ⟨10 * (i 0).val + 9, hlt⟩ (2 : Fin 3) * 256 + 256
      rw [e2]; omega

/-- The host operations after the call, as one function of the call's result array. -/
def tail (A : S2x1x256.Idx → EReal) : S256.Idx → EReal :=
  Host.divf (F := Ideal) (Host.reduceAdd (F := Ideal) (shapeCast S2x256 A shapeCasts_S2x1x256_S2x256) (constant (F := Ideal) S_ .f32 0x00000000#32)
      reducesTo_S2x256_S256_d0 h_S_)
    (broadcastInDim S256 ![] bcast_S_S256 (constant (F := Ideal) S_ .f32 0x47C35000#32))

/-- The program's result buffer after the run is the tail of `halves`. -/
theorem tail_eq (c : Dev nD) :
    Pipeline.afterTail₀ cfgs (dats m) 0 (V0 m) [hostOps1] c main_v13 = tail (halves m c) := by
  unfold Pipeline.afterTail₀
  show StableHlo.after hostOps1 _ (Proc.devRef .tc main_v13) = _
  after_results
  have hA : Pipeline.withArrays (cfgs 0).spec c (V0 m c) (fun w => (dats m 0 c).arrAt w (cfgs 0).N) (Proc.devRef .tc main_v9) = halves m c :=
    (Pipeline.withArrays_arr spec0 launch0.win.arr_inj c _ _ 3).trans (final_o m c)
  rw [hA]
  rfl

/-- A 2 × 1 × b array cast to 2 × b reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The tail at query `b`: the host's zero plus the two rows' entries, over 100000. -/
theorem tail_apply (A : S2x1x256.Idx → EReal) (b : Fin 256) :
    tail A (ix1 b) = Ideal.div (Ideal.ofBits .f32 0x00000000#32 + ∑ k : Fin 2, A (ix3 k (0 : Fin 1) b)) (Ideal.ofBits .f32 0x47C35000#32) := by
  have hden : broadcastInDim S256 ![] bcast_S_S256 (constant (F := Ideal) S_ .f32 0x47C35000#32) (ix1 b) = Ideal.ofBits .f32 0x47C35000#32 :=
    broadcastInDim_apply _ bcast_S_S256 _ (ix1 b) ix0 (fun a => a.elim0)
  have hnum : Host.reduceAdd (F := Ideal) (shapeCast S2x256 A shapeCasts_S2x1x256_S2x256) (constant (F := Ideal) S_ .f32 0x00000000#32)
      reducesTo_S2x256_S256_d0 h_S_ (ix1 b) = Ideal.ofBits .f32 0x00000000#32 + ∑ k : Fin 2, A (ix3 k (0 : Fin 1) b) := by
    simp only [Host.reduceAdd, Ideal.hostReduceAdd_def]
    rw [Ideal.hostReduceAdd_single reducesTo_S2x256_S256_d0 (by decide)]
    refine congrArg (_ + ·) (Finset.sum_congr rfl fun k _ => ?_)
    refine Eq.trans (congrArg _ (funext fun a => Fin.ext (by match a with | ⟨0, _⟩ => rfl | ⟨1, _⟩ => rfl))) (shapeCast_a1b_ab_apply A shapeCasts_S2x1x256_S2x256 k b)
  unfold tail
  exact congrArg₂ Ideal.div hnum hden

/-- The program's result at query `b`: the sum over all corpus rows of the row's similarity to the query, from the
    host's zero, over 100000 — the two halves of ten tiles of 5000 rows regrouped into one sum. -/
theorem result_apply (c : Dev nD) (b : Fin 256) :
    tail (halves m c) (ix1 b)
      = Ideal.div (Ideal.ofBits .f32 0x00000000#32 + ∑ n : Fin 100000,
          Payload.simTerm (∑ d : Fin 256, corpus m c (ix2 n d) * corpus m c (ix2 n d)) (e2 m c (ix2 (0 : Fin 1) b))
            (∑ d : Fin 256, corpus m c (ix2 n d) * eT m c (ix2 d b)))
        (Ideal.ofBits .f32 0x47C35000#32) := by
  rw [tail_apply]
  refine congrArg (fun s => Ideal.div (Ideal.ofBits .f32 0x00000000#32 + s) (Ideal.ofBits .f32 0x47C35000#32)) ?_
  show ∑ k : Fin 2, halfSum m c k b = _
  unfold halfSum
  rw [sum_halves (fun j => tileSum (eT m c) (e2 m c) (corpus m c) j b)]
  unfold tileSum
  exact (sum_tiles (M := EReal) (fun n => Payload.simTerm (∑ d : Fin 256, corpus m c (ix2 n d) * corpus m c (ix2 n d))
    (e2 m c (ix2 (0 : Fin 1) b)) (∑ d : Fin 256, corpus m c (ix2 n d) * eT m c (ix2 d b)))).symm

/-- The run, read: the result buffer at the tail of the call's result, the arguments unchanged. -/
theorem run : θ_run defs (onTc (τ := τ) (main (F := Ideal))) ⟨m, fun _ => 0, ρ⟩ (fun r => ∀ c : Dev nD,
      r.2.mem ((c.tc : Thread nD τ).loc main_v13) = tail (halves m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v13 (Pipeline.mem_restRefs_of main_v13 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c)))⟩) (run_main m ρ)

end Cert.KernelIdeal.Final

end
-- ==== Proof.RbfRef.lean ====
/-
  The reference, read at an index over the extended reals.
  With e = x · W + bias the encodings and c the corpus, the reference's result at query b is
      (0 + ∑ n, exp (-(max (((0 + ∑ k, e b k · e b k) + (0 + ∑ k, c n k · c n k)) - 2 · ∑ k, e b k · c n k) 0) / 512)) / 100000,
  each stage read off the generated read-at-an-index lemmas of the reference's run.
-/
import proofs.«138224_j74526272520307_2_alg».proof.Proof.Gen.ReferenceIdeal.Read
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-- The reference's similarity of corpus row `n` to query `b`, from the encodings `E` and the corpus `C`. -/
def refTerm (E : S256x256.Idx → EReal) (C : S100000x256.Idx → EReal) (b : Fin 256) (n : Fin 100000) : EReal :=
  Ideal.exp (Ideal.div
    (-(max (((Ideal.ofBits .f32 0x00000000#32 + ∑ k : Fin 256, E (ix2 b k) * E (ix2 b k))
          + (Ideal.ofBits .f32 0x00000000#32 + ∑ k : Fin 256, C (ix2 n k) * C (ix2 n k)))
        - Ideal.ofBits .f32 0x40000000#32 * ∑ k : Fin 256, E (ix2 b k) * C (ix2 n k))
      (Ideal.ofBits .f32 0x00000000#32)))
    (Ideal.ofBits .f32 0x44000000#32))

variable (X : FVec Ideal S256x512 .f32) (W : FVec Ideal S512x256 .f32) (B : FVec Ideal S256 .f32) (C : FVec Ideal S100000x256 .f32)

theorem v23_apply (b : Fin 256) (n : Fin 100000) :
    val_main_v23 (F := Ideal) X W B C (ix2 b n) = refTerm (val_main_v3 (F := Ideal) X W B) C b n := by
  have e1 : ∀ k : Fin 256, idx_main_v5 (idx_main_v6 (idx_main_v10 (ix2 b n))) k = ix2 b k := fun k =>
    funext fun a => Fin.ext (by match a with | ⟨0, _⟩ => rfl | ⟨1, _⟩ => rfl)
  have e2 : ∀ k : Fin 256, idx_main_v8 (idx_main_v9 (idx_main_v11 (ix2 b n))) k = ix2 n k := fun k =>
    funext fun a => Fin.ext (by match a with | ⟨0, _⟩ => rfl | ⟨1, _⟩ => rfl)
  have e3 : ∀ k : Fin 256, lidx_main_v14 (ix2 b n) k = ix2 b k := fun k =>
    funext fun a => Fin.ext (by match a with | ⟨0, _⟩ => rfl | ⟨1, _⟩ => rfl)
  have e4 : ∀ k : Fin 256, idx_main_v13 (ridx_main_v14 (ix2 b n) k) = ix2 n k := fun k =>
    funext fun a => Fin.ext (by match a with | ⟨0, _⟩ => rfl | ⟨1, _⟩ => rfl)
  rw [val_main_v23_apply, val_main_v22_apply, val_main_v20_apply, val_main_v19_apply, val_main_v17_apply,
    val_main_v12_apply, val_main_v16_apply, val_main_v10_apply, val_main_v6_apply, val_main_v5_apply,
    val_main_v11_apply, val_main_v9_apply, val_main_v8_apply, val_main_v14_apply, val_main_v15_apply,
    val_main_v18_apply, val_main_v21_apply]
  simp only [val_main_v4_apply, val_main_v7_apply, val_main_v13_apply, val_main_cst_apply, val_main_cst_0_apply,
    val_main_cst_1_apply, val_main_cst_2_apply, val_main_cst_3_apply, e1, e2, e3, e4,
    Ideal.hostUnary_exp_def, Ideal.hostDivf_def, Ideal.hostNegf_def, Ideal.maximumf_def, Ideal.subf_def, Ideal.addf_def,
    Ideal.mulf_def, Ideal.ofBits_def]
  rfl

/-- The reference's result at query `b`. -/
theorem ref_apply (b : Fin 256) :
    val_main_v26 (F := Ideal) X W B C (ix1 b)
      = Ideal.div (Ideal.ofBits .f32 0x00000000#32 + ∑ n : Fin 100000, refTerm (val_main_v3 (F := Ideal) X W B) C b n)
          (Ideal.ofBits .f32 0x47C35000#32) := by
  have e : ∀ k : Fin 100000, idx_main_v24 (ix1 b) k = ix2 b k := fun k =>
    funext fun a => Fin.ext (by match a with | ⟨0, _⟩ => rfl | ⟨1, _⟩ => rfl)
  rw [val_main_v26_apply, val_main_v24_apply, val_main_v25_apply]
  simp only [val_main_cst_4_apply, val_main_cst_5_apply, e, v23_apply, Ideal.hostDivf_def, Ideal.ofBits_def]

end Cert.ReferenceIdeal.RefValue

end
-- ==== Proof.RbfBridge.lean ====
/-
  The two sides are one function of the arguments.
  Per corpus row n and query b the kernel computes exp ((0 - max ((‖c n‖² + e2 b) - 2 · (c n · e b)) 0) · 2⁻⁹) with
  e2 b = 0 + ‖e b‖², the reference exp (-(max (((0 + ‖e b‖²) + (0 + ‖c n‖²)) - 2 · (e b · c n)) 0) / 512): equal on
  the extended reals by commutativity of + and ·, the zero word being 0, and the product with 2⁻⁹ being the
  quotient by 512. Summed over the corpus from the same zero and divided by the same 100000, the results agree.
  No finiteness of the inputs is used.
-/
import proofs.«138224_j74526272520307_2_alg».proof.Proof.RbfFinal
import proofs.«138224_j74526272520307_2_alg».proof.Proof.RbfRef

noncomputable section

open Idealize.ShloMosaic Idealize.ShloMosaic.TcCoe Idealize.SL.Sem Idealize.ShloMosaic.ValueIdx

namespace Cert.Rbf.Bridge

open Cert.KernelIdeal Cert.KernelIdeal.Gen Cert.KernelIdeal.Blocks Cert.KernelIdeal.Accum Cert.KernelIdeal.Final

/-- One row against one query: the kernel's term is the reference's. -/
theorem sim_eq_ref (E : S256x256.Idx → EReal) (C : S100000x256.Idx → EReal) (b : Fin 256) (n : Fin 100000) :
    Payload.simTerm (∑ d : Fin 256, C (ix2 n d) * C (ix2 n d))
        (Ideal.ofBits .f32 0x00000000#32 + ∑ k : Fin 256, E (ix2 b k) * E (ix2 b k))
        (∑ d : Fin 256, C (ix2 n d) * E (ix2 b d))
      = Cert.ReferenceIdeal.RefValue.refTerm E C b n := by
  unfold Payload.simTerm Cert.ReferenceIdeal.RefValue.refTerm
  rw [Cert.Rbf.scale_eq]
  have h1 : (∑ d : Fin 256, C (ix2 n d) * E (ix2 b d)) = ∑ k : Fin 256, E (ix2 b k) * C (ix2 n k) :=
    Finset.sum_congr rfl fun k _ => mul_comm _ _
  rw [h1, add_comm (∑ d : Fin 256, C (ix2 n d) * C (ix2 n d)), Ideal.ofBits_zero_f32]
  simp only [zero_add]

/-- The encodings the kernel's host lines compute are the reference's. -/
theorem enc_eq (X : FVec Ideal S256x512 .f32) (W : FVec Ideal S512x256 .f32) (B : FVec Ideal S256 .f32) :
    enc (F := Ideal) X W B = Cert.ReferenceIdeal.Read.val_main_v3 (F := Ideal) X W B := rfl

variable (m : (ℓ : Loc nD τ sig) → Buf (Elt Ideal) ℓ)

/-- The program's result is the reference's result of the same argument arrays. -/
theorem result_eq (c : Dev nD) :
    tail (halves m c)
      = Cert.ReferenceIdeal.Read.val_main_v26 (F := Ideal) (m ((c.tc : Thread nD τ).loc main_arg0)) (m ((c.tc : Thread nD τ).loc main_arg1))
          (m ((c.tc : Thread nD τ).loc main_arg2)) (m ((c.tc : Thread nD τ).loc main_arg3)) := by
  funext i
  obtain ⟨b, rfl⟩ : ∃ b : Fin 256, i = ix1 b := ⟨i 0, eq_ix1 i⟩
  rw [result_apply, Cert.ReferenceIdeal.RefValue.ref_apply, ← enc_eq]
  refine congrArg (fun s => Ideal.div (Ideal.ofBits .f32 0x00000000#32 + s) (Ideal.ofBits .f32 0x47C35000#32)) ?_
  refine Finset.sum_congr rfl fun n _ => ?_
  rw [← sim_eq_ref]
  have h2 : e2 m c (ix2 (0 : Fin 1) b)
      = Ideal.ofBits .f32 0x00000000#32 + ∑ k : Fin 256,
          enc (F := Ideal) (m ((c.tc : Thread nD τ).loc main_arg0)) (m ((c.tc : Thread nD τ).loc main_arg1)) (m ((c.tc : Thread nD τ).loc main_arg2)) (ix2 b k)
            * enc (F := Ideal) (m ((c.tc : Thread nD τ).loc main_arg0)) (m ((c.tc : Thread nD τ).loc main_arg1)) (m ((c.tc : Thread nD τ).loc main_arg2)) (ix2 b k) :=
    (e2_apply m c (0 : Fin 1) b).trans (encSq_apply _ b)
  have h3 : ∀ d : Fin 256, eT m c (ix2 d b)
      = enc (F := Ideal) (m ((c.tc : Thread nD τ).loc main_arg0)) (m ((c.tc : Thread nD τ).loc main_arg1)) (m ((c.tc : Thread nD τ).loc main_arg2)) (ix2 b d) :=
    fun d => eT_apply m c d b
  rw [h2]
  simp only [h3]

end Cert.Rbf.Bridge

end
-- ==== Proof.lean ====
/-
  The certificate of the radial-basis-function similarity kernel against its jnp reference.

  Both programs compute, for each of 256 queries b,
      sim b = (∑ over the 100000 corpus rows n of exp (-(max (‖e b‖² + ‖c n‖² - 2 e b · c n) 0) / 512)) / 100000,
  with e = x · W + bias the encoded queries. The kernel streams the corpus in twenty tiles of 5000 rows over a
  2 × 10 grid, keeps a running row of partial sums per half of the grid, writes each half's row back at its last
  point, and the host adds the two rows and divides; it scales by the dyadic 2⁻⁹ where the reference divides by 512.
  Over the extended reals the two results are equal for every input: the sum regroups (addition is commutative and
  associative there), the two products commute, 0 + x = x, and x · 2⁻⁹ = x / 512 at infinities too.

  The three frames are the generated ones (the reference's is its generated run with the result dropped), the
  idealization changed no operation, and the value claim is assembled from the modules beside this one: the pieces each
  control case leaves (RbfPieces), the payload at an index (RbfPayload), the windows' blocks as functions of the
  arguments (RbfBlocks), the accumulation over the grid (RbfAccum), the result array and the host tail (RbfFinal),
  the reference at an index (RbfRef), and the equality of the two (RbfBridge).
-/
import proofs.«138224_j74526272520307_2_alg».proof.Defs
import proofs.«138224_j74526272520307_2_alg».proof.Proof.Gen.Kernel
import proofs.«138224_j74526272520307_2_alg».proof.Proof.Gen.Kernel.Skeleton
import proofs.«138224_j74526272520307_2_alg».proof.Proof.Gen.Kernel.Launch
import proofs.«138224_j74526272520307_2_alg».proof.Proof.Gen.Kernel.Points
import proofs.«138224_j74526272520307_2_alg».proof.Proof.Gen.Kernel.Frame
import proofs.«138224_j74526272520307_2_alg».proof.Proof.Gen.KernelIdeal
import proofs.«138224_j74526272520307_2_alg».proof.Proof.Gen.KernelIdeal.Skeleton
import proofs.«138224_j74526272520307_2_alg».proof.Proof.Gen.KernelIdeal.Launch
import proofs.«138224_j74526272520307_2_alg».proof.Proof.Gen.KernelIdeal.Points
import proofs.«138224_j74526272520307_2_alg».proof.Proof.Gen.KernelIdeal.Frame
import proofs.«138224_j74526272520307_2_alg».proof.Proof.Gen.ReferenceIdeal
import proofs.«138224_j74526272520307_2_alg».proof.Proof.Gen.Pre_finite_inputs
import proofs.«138224_j74526272520307_2_alg».proof.Proof.Gen.ReferenceIdeal.Run
import proofs.«138224_j74526272520307_2_alg».proof.Proof.Gen.ReferenceIdeal.Read
import proofs.«138224_j74526272520307_2_alg».proof.Proof.RbfBridge
import Idealize.ShloMosaic.Adequacy
import Idealize.ShloMosaic.Init

noncomputable section

namespace Cert.Proof

open Idealize.ShloMosaic Idealize.SL.Sem

/-- The word-level kernel terminates, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the four arguments, the kernel's result buffer ends at the host tail of the call's
    result array and the reference's at its composed term; the two are one function of the arguments. -/
theorem algebraic : Cert.algebraic_KernelIdeal_ReferenceIdeal := by
  intro m ρ m' ρ' _ hagree
  refine ⟨fun c => Cert.KernelIdeal.Final.tail (Cert.KernelIdeal.Final.halves m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v26_eq]
  exact (Cert.Rbf.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
